-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel

variable [Facts]

def fn {F : FTy → Type} [FloatOps F] (main_arg0 : FVec F S50000x128 .f32) (main_arg1 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  main_v3
-- ==== Kernel.lean ====
abbrev S50000x128 : Shape := ⟨2, ![50000, 128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S2000x128 : Shape := ⟨2, ![2000, 128]⟩
abbrev S2000x1 : Shape := ⟨2, ![2000, 1]⟩
abbrev S2000 : Shape := ⟨1, ![2000]⟩
abbrev S800000x128 : Shape := ⟨2, ![800000, 128]⟩

abbrev nBuf : Space → Nat
  | .hbm => 57
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S1x800000, .i32⟩
  | .hbm, ⟨3, _⟩ => ⟨S800000, .i32⟩
  | .hbm, ⟨4, _⟩ => ⟨S1x800000, .i32⟩
  | .hbm, ⟨5, _⟩ => ⟨S800000, .i32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S2000x128, .f32⟩
  | .local _ .vmem, ⟨11, _⟩ => ⟨S2000x128, .f32⟩
  | .local _ .vmem, ⟨12, _⟩ => ⟨S2000x1, .f32⟩
  | .local _ .vmem, ⟨13, _⟩ => ⟨S2000x1, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x1, .f32⟩
  | .local _ .vmem, ⟨19, _⟩ => ⟨S2000x1, .f32⟩
  | .local _ .vmem, ⟨20, _⟩ => ⟨S2000x128, .f32⟩
  | .local _ .vmem, ⟨21, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  reduces_S2000x128_S2000 : S2000x128.Reduces [1] S2000
  shapeCasts_S2000_S2000x1 : S2000.ShapeCasts S2000x1
  broadcasts_S2000x1_S2000x128 : S2000x1.Broadcasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  bcast_S_S50000x128 : S_.BroadcastsInDim S50000x128 (![] : Fin 0 → Fin S50000x128.rank)
  shapeCasts_S2000x128_S2000x128 : S2000x128.ShapeCasts S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩

abbrev nBuf : Space → Nat
  | .hbm => 117
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S1x800000, .i32⟩
  | .hbm, ⟨3, _⟩ => ⟨S800000, .i32⟩
  | .hbm, ⟨4, _⟩ => ⟨S1x800000, .i32⟩
  | .hbm, ⟨5, _⟩ => ⟨S800000, .i32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000x1, .f32⟩
  | .hbm, ⟨29, _⟩ => ⟨S_, .f32⟩
  | .hbm, ⟨30, _⟩ => ⟨S50000x1, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S50000, .f32⟩
  | .hbm, ⟨37, _⟩ => ⟨S50000x1, .f32⟩
  | .hbm, ⟨38, _⟩ => ⟨S_, .f32⟩
  | .hbm, ⟨39, _⟩ => ⟨S50000x1, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x1, .f32⟩
  | .hbm, ⟨45, _⟩ => ⟨S50000x1, .f32⟩
  | .hbm, ⟨46, _⟩ => ⟨S50000x1, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S50000x128, .f32⟩
  | .hbm, ⟨51, _⟩ => ⟨S50000x128, .f32⟩
  | .hbm, ⟨52, _⟩ => ⟨S50000x1, .f32⟩
  | .hbm, ⟨53, _⟩ => ⟨S50000x128, .f32⟩
  | .hbm, ⟨54, _⟩ => ⟨S50000x128, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x128, .f32⟩
  | .hbm, ⟨64, _⟩ => ⟨S_, .f32⟩
  | .hbm, ⟨65, _⟩ => ⟨S50000x128, .f32⟩
  | .hbm, ⟨66, _⟩ => ⟨S800000x1, .i32⟩
  | .hbm, ⟨67, _⟩ => ⟨S50000x128, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S50000, .f32⟩
  | .hbm, ⟨74, _⟩ => ⟨S50000x1, .f32⟩
  | .hbm, ⟨75, _⟩ => ⟨S_, .f32⟩
  | .hbm, ⟨76, _⟩ => ⟨S50000x1, .f32⟩
  | .hbm, ⟨77, _⟩ => ⟨S50000x1, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000, .f32⟩
  | .hbm, ⟨83, _⟩ => ⟨S50000x1, .f32⟩
  | .hbm, ⟨84, _⟩ => ⟨S_, .f32⟩
  | .hbm, ⟨85, _⟩ => ⟨S50000x1, .f32⟩
  | .hbm, ⟨86, _⟩ => ⟨S50000x1, .f32⟩
  | .hbm, ⟨87, _⟩ => ⟨S50000x128, .f32⟩
  | .hbm, ⟨88, _⟩ => ⟨S50000x128, .f32⟩
  | .hbm, ⟨89, _⟩ => ⟨S_, .f32⟩
  | .hbm, ⟨90, _⟩ => ⟨S50000x1, .f32⟩
  | .hbm, ⟨91, _⟩ => ⟨S50000x1, .f32⟩
  | .hbm, ⟨92, _⟩ => ⟨S50000x1, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000x128, .f32⟩
  | .hbm, ⟨97, _⟩ => ⟨S50000x128, .f32⟩
  | .hbm, ⟨98, _⟩ => ⟨S50000x1, .f32⟩
  | .hbm, ⟨99, _⟩ => ⟨S50000x128, .f32⟩
  | .hbm, ⟨100, _⟩ => ⟨S50000x128, .f32⟩
  | .hbm, ⟨101, _⟩ => ⟨S_, .i32⟩
  | .hbm, ⟨102, _⟩ => ⟨S800000, .i32⟩
  | .hbm, ⟨103, _⟩ => ⟨S800000, .i1⟩
  | .hbm, ⟨104, _⟩ => ⟨S_, .i32⟩
  | .hbm, ⟨105, _⟩ => ⟨S800000, .i32⟩
  | .hbm, ⟨106, _⟩ => ⟨S800000, .i32⟩
  | .hbm, ⟨107, _⟩ => ⟨S800000, .i32⟩
  | .hbm, ⟨108, _⟩ => ⟨S800000x1, .i32⟩
  | .hbm, ⟨109, _⟩ => ⟨S800000x128, .f32⟩
  | .hbm, ⟨110, _⟩ => ⟨S_, .f32⟩
  | .hbm, ⟨111, _⟩ => ⟨S50000x128, .f32⟩
  | .hbm, ⟨112, _⟩ => ⟨S800000x1, .i32⟩
  | .hbm, ⟨113, _⟩ => ⟨S50000x128, .f32⟩
  | .hbm, ⟨114, _⟩ => ⟨S50000x1, .f32⟩
  | .hbm, ⟨115, _⟩ => ⟨S50000x128, .f32⟩
  | .hbm, ⟨116, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call2_cst : Ref sig .tc := ⟨.hbm, 49, rfl⟩
abbrev main_call2_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_cst_14 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_15 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call3_cst : Ref sig .tc := ⟨.hbm, 95, rfl⟩
abbrev main_call3_v0 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_16 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_18 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.RowNorm.lean ====
/-
  One layer of the network acts on a feature matrix of 50000 rows (nodes) and 128 columns row by row:
  a row is centred at its mean, divided by the square root of its variance plus a small constant,
  clipped below at zero, and multiplied by one number that belongs to the row (the inverse square
  root of the node's clamped out-degree). This file states that as functions on the extended reals —
  first for one row, then for the whole matrix —, together with the two other row-wise maps of the
  network (the residual "aggregate times in-degree factor plus the input" and the final "aggregate
  times in-degree factor"), and the few facts about moving between a vector of per-row numbers, the
  same numbers laid out as a one-column matrix, and that column repeated across 128 columns.
  Nothing here mentions a program.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.RowNorm

open Idealize.ShloMosaic Idealize.ShloMosaic.ValueIdx

/-! ## One row -/

/-- The row length 128, the variance offset (the float nearest 1e-5) and zero, each as the extended
    real its float word denotes. -/
abbrev w128 : EReal := Ideal.ofBits .f32 0x43000000#32
abbrev wEps : EReal := Ideal.ofBits .f32 0x3727C5AC#32
abbrev wZero : EReal := Ideal.ofBits .f32 0x00000000#32

/-- The mean of a row: the sum of its 128 entries divided by 128. -/
def rowMean (row : Fin 128 → EReal) : EReal := Ideal.div (∑ k : Fin 128, row k) w128

/-- The variance of a row: the mean of the squared deviations from the row's mean. -/
def rowVar (row : Fin 128 → EReal) : EReal :=
  Ideal.div (∑ k : Fin 128, (row k - rowMean row) * (row k - rowMean row)) w128

/-- Entry q of the normalized, clipped and scaled row:
    max ((row q − mean) · (variance + ε)^(−1/2), 0) · s. -/
def normRelu (row : Fin 128 → EReal) (s : EReal) (q : Fin 128) : EReal :=
  max ((row q - rowMean row) * Ideal.rsqrt (rowVar row + wEps)) wZero * s

/-- The row map depends on the row only through its entries. -/
theorem normRelu_congr {row row' : Fin 128 → EReal} {s s' : EReal} {q q' : Fin 128}
    (hr : ∀ k, row k = row' k) (hs : s = s') (hq : q = q') : normRelu row s q = normRelu row' s' q' := by
  have h : row = row' := funext hr
  subst h hs hq; rfl

/-! ## The shapes -/

/-- The feature matrix, a per-node vector, and that vector as a one-column matrix. -/
abbrev SM : Shape := ⟨2, ![50000, 128]⟩
abbrev SV : Shape := ⟨1, ![50000]⟩
abbrev SC : Shape := ⟨2, ![50000, 1]⟩
/-- A block of 2000 consecutive rows of each. -/
abbrev BM : Shape := ⟨2, ![2000, 128]⟩
abbrev BV : Shape := ⟨1, ![2000]⟩
abbrev BC : Shape := ⟨2, ![2000, 1]⟩

/-! ## The whole matrix -/

/-- Every row r of X normalized, clipped and scaled by d r. -/
def normScale (X : SM.Idx → EReal) (d : SV.Idx → EReal) : SM.Idx → EReal :=
  fun i => normRelu (fun k => X (ix2 (i 0) k)) (d (ix1 (i 0))) (i 1)

/-- Row r of A times d r, plus X: the residual step. -/
def residual (A : SM.Idx → EReal) (d : SV.Idx → EReal) (X : SM.Idx → EReal) : SM.Idx → EReal :=
  fun i => A i * d (ix1 (i 0)) + X i

/-- Row r of A times d r. -/
def scaleRows (A : SM.Idx → EReal) (d : SV.Idx → EReal) : SM.Idx → EReal :=
  fun i => A i * d (ix1 (i 0))

/-- The same three maps with the per-row factor given as a one-column matrix. -/
def normScaleCol (X : SM.Idx → EReal) (d : SC.Idx → EReal) : SM.Idx → EReal :=
  fun i => normRelu (fun k => X (ix2 (i 0) k)) (d (ix2 (i 0) 0)) (i 1)
def residualCol (A : SM.Idx → EReal) (d : SC.Idx → EReal) (X : SM.Idx → EReal) : SM.Idx → EReal :=
  fun i => A i * d (ix2 (i 0) 0) + X i
def scaleRowsCol (A : SM.Idx → EReal) (d : SC.Idx → EReal) : SM.Idx → EReal :=
  fun i => A i * d (ix2 (i 0) 0)

/-! ## A vector as a column, and a column across the columns -/

section Layout
variable {α : Type}

/-- A vector of 50000 numbers recast as a one-column matrix holds number r in row r. -/
theorem colCast_apply (v : SV.Idx → α) (h : SV.ShapeCasts SC) (r : Fin 50000) (z : Fin 1) :
    shapeCast SC v h (ix2 r z) = v (ix1 r) :=
  shapeCast_apply v h (ix2 r z) (ix1 r) (by
    rw [Shape.rowMajor_val_one, Shape.rowMajor_val_two]
    have hz : z.val < 1 := z.isLt
    show r.val = r.val * 1 + z.val
    omega)

/-- The same for a block of 2000. -/
theorem blockColCast_apply (v : BV.Idx → α) (h : BV.ShapeCasts BC) (p : Fin 2000) (z : Fin 1) :
    shapeCast BC v h (ix2 p z) = v (ix1 p) :=
  shapeCast_apply v h (ix2 p z) (ix1 p) (by
    rw [Shape.rowMajor_val_one, Shape.rowMajor_val_two]
    have hz : z.val < 1 := z.isLt
    show p.val = p.val * 1 + z.val
    omega)

/-- A one-column block repeated across 128 columns holds, in row p, the column's entry of row p. -/
theorem blockColSpread_apply (v : BC.Idx → α) (h : BC.Broadcasts BM) (p : Fin 2000) (q : Fin 128) :
    broadcastTo BM v h (ix2 p q) = v (ix2 p 0) :=
  broadcastTo_apply v h (ix2 p q) (ix2 p 0) (fun a => match a with
    | ⟨0, _⟩ => rfl
    | ⟨1, _⟩ => rfl)

end Layout

/-- So the column forms of the three maps at a recast vector are the vector forms. -/
theorem normScaleCol_cast (X : SM.Idx → EReal) (d : SV.Idx → EReal) (h : SV.ShapeCasts SC) :
    normScaleCol X (shapeCast SC d h) = normScale X d := by
  funext i
  obtain ⟨r, c, rfl⟩ : ∃ (r : Fin 50000) (c : Fin 128), i = ix2 r c := ⟨i 0, i 1, eq_ix2 i⟩
  exact normRelu_congr (fun _ => rfl) (colCast_apply d h r 0) rfl

theorem residualCol_cast (A : SM.Idx → EReal) (d : SV.Idx → EReal) (h : SV.ShapeCasts SC) (X : SM.Idx → EReal) :
    residualCol A (shapeCast SC d h) X = residual A d X := by
  funext i
  obtain ⟨r, c, rfl⟩ : ∃ (r : Fin 50000) (c : Fin 128), i = ix2 r c := ⟨i 0, i 1, eq_ix2 i⟩
  show A (ix2 r c) * shapeCast SC d h (ix2 r 0) + X (ix2 r c) = A (ix2 r c) * d (ix1 r) + X (ix2 r c)
  rw [colCast_apply d h r 0]

theorem scaleRowsCol_cast (A : SM.Idx → EReal) (d : SV.Idx → EReal) (h : SV.ShapeCasts SC) :
    scaleRowsCol A (shapeCast SC d h) = scaleRows A d := by
  funext i
  obtain ⟨r, c, rfl⟩ : ∃ (r : Fin 50000) (c : Fin 128), i = ix2 r c := ⟨i 0, i 1, eq_ix2 i⟩
  show A (ix2 r c) * shapeCast SC d h (ix2 r 0) = A (ix2 r c) * d (ix1 r)
  rw [colCast_apply d h r 0]

/-! ## A row sum of a block -/

/-- The sum along the 128 columns of a block of 2000 rows, read at row p, is the sum of that row. -/
theorem blockRowSum_apply (src : FVec Ideal BM .f32) (acc : BitVec 32) (h : BM.Reduces [1] BV) (hφ : FKind.Formats .f32)
    (hacc : acc = FKind.add.neutral .f32 hφ) (p : Fin 2000) :
    multiReduction .add [1] BV src acc h hφ hacc (ix1 p) = ∑ k : Fin 128, src (ix2 p k) :=
  (Ideal.multiReduction_add_single src acc h hφ hacc (ix1 p)).trans
    (Finset.sum_congr rfl fun k _ => congrArg src (funext fun a => match a with
      | ⟨0, _⟩ => Fin.ext rfl
      | ⟨1, _⟩ => Fin.ext rfl))

end Cert.RowNorm

end
-- ==== Proof.BlockNorm.lean ====
/-
  The normalization of a BLOCK of 2000 rows, written with the vector operations a block program has
  (a sum along the columns, a recast of the 2000 sums as a one-column block, that column repeated
  across the 128 columns, and pointwise arithmetic), and what each stage holds at an index: the
  mean column holds each row's mean, the deviations are the entries minus their row's mean, the
  inverse-deviation column holds (variance + ε)^(−1/2) of each row, and the result at (p, q) is the
  row map of RowNorm applied to row p of the block. Row p of the result depends on row p of the
  block only — which is why cutting the matrix into blocks of rows changes nothing.
-/
import proofs.«119341_j34720515620918_1_alg».proof.Proof.RowNorm

noncomputable section

open scoped BigOperators

namespace Cert.RowNorm

open Idealize.ShloMosaic Idealize.ShloMosaic.ValueIdx

variable (x : FVec Ideal BM .f32) (s : FVec Ideal BC .f32)
  (hred : BM.Reduces [1] BV) (hcast : BV.ShapeCasts BC) (hb : BC.Broadcasts BM) (hself : BC.ShapeCasts BC)

/-- The column of row means: the row sums, recast as a column, divided by 128. -/
def blockMean : FVec Ideal BC .f32 :=
  divf (shapeCast BC (multiReduction .add [1] BV x 0x00000000#32 hred (.inl rfl) rfl) hcast)
    (broadcast BC (Scalar.ofBits .f32 0x43000000#32 : Ideal .f32))

theorem blockMean_apply (p : Fin 2000) (z : Fin 1) :
    blockMean x hred hcast (ix2 p z) = rowMean (fun k => x (ix2 p k)) := by
  show Ideal.div (shapeCast BC (multiReduction .add [1] BV x 0x00000000#32 hred (.inl rfl) rfl) hcast (ix2 p z)) w128
    = Ideal.div (∑ k : Fin 128, x (ix2 p k)) w128
  exact congrArg (fun t => Ideal.div t w128)
    ((blockColCast_apply _ hcast p z).trans (blockRowSum_apply x _ hred _ _ p))

/-- The deviations: every entry minus its row's mean. -/
def blockDev : FVec Ideal BM .f32 := subf x (broadcastTo BM (blockMean x hred hcast) hb)

theorem blockDev_apply (p : Fin 2000) (q : Fin 128) :
    blockDev x hred hcast hb (ix2 p q) = x (ix2 p q) - rowMean (fun k => x (ix2 p k)) := by
  show x (ix2 p q) - broadcastTo BM (blockMean x hred hcast) hb (ix2 p q) = _
  rw [blockColSpread_apply, blockMean_apply]

/-- The column of (variance + ε)^(−1/2): the row sums of the squared deviations over 128, plus ε,
    under the inverse square root. -/
def blockInv : FVec Ideal BC .f32 :=
  rsqrt (addf
    (divf (shapeCast BC (multiReduction .add [1] BV (mulf (blockDev x hred hcast hb) (blockDev x hred hcast hb))
        0x00000000#32 hred (.inl rfl) rfl) hcast)
      (broadcast BC (Scalar.ofBits .f32 0x43000000#32 : Ideal .f32)))
    (broadcast BC (Scalar.ofBits .f32 0x3727C5AC#32 : Ideal .f32)))

theorem blockInv_apply (p : Fin 2000) (z : Fin 1) :
    blockInv x hred hcast hb (ix2 p z) = Ideal.rsqrt (rowVar (fun k => x (ix2 p k)) + wEps) := by
  show Ideal.rsqrt (Ideal.div (shapeCast BC (multiReduction .add [1] BV
      (mulf (blockDev x hred hcast hb) (blockDev x hred hcast hb)) 0x00000000#32 hred (.inl rfl) rfl) hcast (ix2 p z)) w128 + wEps)
    = Ideal.rsqrt (Ideal.div (∑ k : Fin 128, (x (ix2 p k) - rowMean (fun k => x (ix2 p k))) * (x (ix2 p k) - rowMean (fun k => x (ix2 p k)))) w128 + wEps)
  refine congrArg (fun t => Ideal.rsqrt (Ideal.div t w128 + wEps)) ?_
  refine ((blockColCast_apply _ hcast p z).trans (blockRowSum_apply _ _ hred _ _ p)).trans
    (Finset.sum_congr rfl fun k _ => ?_)
  show blockDev x hred hcast hb (ix2 p k) * blockDev x hred hcast hb (ix2 p k) = _
  rw [blockDev_apply]

/-- The block's result: deviations times the inverse-deviation column, clipped below at zero, times
    the column of per-row factors. -/
def blockNorm : FVec Ideal BM .f32 :=
  mulf (maximumf (mulf (blockDev x hred hcast hb) (broadcastTo BM (blockInv x hred hcast hb) hb))
      (broadcast BM (Scalar.ofBits .f32 0x00000000#32 : Ideal .f32)))
    (broadcastTo BM (shapeCast BC s hself) hb)

/-- Entry (p, q) of the block's result is the row map at row p of the block and the factor of row p. -/
theorem blockNorm_apply (p : Fin 2000) (q : Fin 128) :
    blockNorm x s hred hcast hb hself (ix2 p q) = normRelu (fun k => x (ix2 p k)) (s (ix2 p 0)) q := by
  show max (blockDev x hred hcast hb (ix2 p q) * broadcastTo BM (blockInv x hred hcast hb) hb (ix2 p q)) wZero
      * broadcastTo BM (shapeCast BC s hself) hb (ix2 p q)
    = max ((x (ix2 p q) - rowMean (fun k => x (ix2 p k))) * Ideal.rsqrt (rowVar (fun k => x (ix2 p k)) + wEps)) wZero * s (ix2 p 0)
  rw [blockColSpread_apply, blockColSpread_apply, blockInv_apply, blockDev_apply, shapeCast_self]

/-- A block times a column of per-row factors, at an index. -/
theorem blockScale_apply (a : FVec Ideal BM .f32) (p : Fin 2000) (q : Fin 128) :
    mulf a (broadcastTo BM (shapeCast BC s hself) hb) (ix2 p q) = a (ix2 p q) * s (ix2 p 0) := by
  show a (ix2 p q) * broadcastTo BM (shapeCast BC s hself) hb (ix2 p q) = _
  rw [blockColSpread_apply, shapeCast_self]

/-- A block times a column of per-row factors (both passed through an identity recast, as a block
    program writes them), at an index. -/
theorem blockScaleCast_apply (a : FVec Ideal BM .f32) (d : FVec Ideal BC .f32) (hm : BM.ShapeCasts BM) (p : Fin 2000) (q : Fin 128) :
    mulf (shapeCast BM a hm) (broadcastTo BM (shapeCast BC d hself) hb) (ix2 p q) = a (ix2 p q) * d (ix2 p 0) := by
  show shapeCast BM a hm (ix2 p q) * broadcastTo BM (shapeCast BC d hself) hb (ix2 p q) = _
  rw [shapeCast_self, blockColSpread_apply, shapeCast_self]

/-- The residual block: an aggregate block times a column of per-row factors, plus an input block. -/
theorem blockResidual_apply (a : FVec Ideal BM .f32) (d : FVec Ideal BC .f32) (y : FVec Ideal BM .f32) (hm : BM.ShapeCasts BM)
    (p : Fin 2000) (q : Fin 128) :
    addf (mulf (shapeCast BM a hm) (broadcastTo BM (shapeCast BC d hself) hb)) y (ix2 p q)
      = a (ix2 p q) * d (ix2 p 0) + y (ix2 p q) := by
  show shapeCast BM a hm (ix2 p q) * broadcastTo BM (shapeCast BC d hself) hb (ix2 p q) + y (ix2 p q) = _
  rw [shapeCast_self, blockColSpread_apply, shapeCast_self]

end Cert.RowNorm

end
-- ==== Proof.KernelBlocks.lean ====
/-
  Region by region, what the grid of 25 points leaves in the output matrix. Each point t owns rows
  2000·t … 2000·t + 1999: it is handed those rows of every input (all 128 columns of a matrix input,
  the one column of a per-row factor), computes the block map of BlockNorm on them, and writes the
  rows back. Because entry (p, q) of a block's result depends only on row p of the block, the block
  written by point t is exactly rows 2000·t … of the whole-matrix map; the 25 blocks tile the 50000
  rows; so the output ends as the whole-matrix map of the inputs as the region found them.
-/
import proofs.«119341_j34720515620918_1_alg».proof.Proof.Gen.KernelIdeal.Frame
import proofs.«119341_j34720515620918_1_alg».proof.Proof.BlockNorm

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen Cert.KernelIdeal.Facts₀ Cert.KernelIdeal.Facts Cert.RowNorm
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-! ## Region 0: normalize the input, clip, scale by the out-degree factor -/

/-- The body's stored value is the block map. -/
theorem pay0_eq (x0 : Vec Ideal S2000x128 .f32) (x1 : Vec Ideal S2000x1 .f32) :
    k0_pay1 (F := Ideal) x0 x1 = blockNorm x0 x1 Facts₀.reduces_S2000x128_S2000 Facts₀.shapeCasts_S2000_S2000x1
      Facts₀.broadcasts_S2000x1_S2000x128 Facts₀.shapeCasts_S2000x1_S2000x1 := rfl

/-- Every window of the region moves with the grid point along the rows and sits at column block 0. -/
theorem index_facts0 : ∀ t : Fin cfg0.N, win0_2.index t (0 : Fin 2) = t.val
    ∧ win0_2.index t (1 : Fin 2) = 0
    ∧ win0_0.index t (0 : Fin 2) = t.val
    ∧ win0_0.index t (1 : Fin 2) = 0
    ∧ win0_1.index t (0 : Fin 2) = t.val
    ∧ win0_1.index t (1 : Fin 2) = 0 :=
  (by decide +kernel : ∀ t : Fin grid0.N, _)

/-- What point t writes back is rows 2000·t … of the whole-matrix map of the two input arrays. -/
theorem flushed0_eq (c : Dev nD) (t : Fin cfg0.N) :
    (dat0 V c).flushed 2 t = ((cfg0.win 2).blk t).view.read (Elt Ideal)
      (normScaleCol (V c main_arg0) (V c main_v13)) := by
  show (cfg0.win 2).cut (grid0.coords t) ((dat0 V c).after 2 t) = _
  rw [after0_2]
  unfold out0_2
  rw [View.canon_unit_zero offsets_zero]
  simp only [View.ld_unit_zero (S := S2000x128) offsets_zero, View.ld_unit_zero (S := S2000x1) offsets_zero]
  rw [pay0_eq]
  obtain ⟨o0, o1, a0, a1, b0, b1⟩ := index_facts0 t
  funext j
  obtain ⟨p, q, rfl⟩ : ∃ (p : Fin 2000) (q : Fin 128), j = ix2 p q := ⟨j 0, j 1, eq_ix2 j⟩
  refine (blockNorm_apply _ _ _ _ _ _ p q).trans ?_
  show _ = normRelu (fun k => V c main_arg0 (ix2 ((((cfg0.win 2).blk t).view.emb (ix2 p q)) 0) k))
    (V c main_v13 (ix2 ((((cfg0.win 2).blk t).view.emb (ix2 p q)) 0) 0)) ((((cfg0.win 2).blk t).view.emb (ix2 p q)) 1)
  refine normRelu_congr (fun k => ?_) ?_ ?_
  · exact (show V c main_arg0 (((cfg0.win 0).blk t).view.emb (ix2 p k)) = V c main_arg0 (ix2 ((((cfg0.win 2).blk t).view.emb (ix2 p q)) 0) k) from
      congrArg (V c main_arg0) (funext fun a => Fin.ext (match a with
        | ⟨0, _⟩ => (by show win0_0.index t (0 : Fin 2) * 2000 + 1 * p.val = win0_2.index t (0 : Fin 2) * 2000 + 1 * p.val; omega)
        | ⟨1, _⟩ => (by show win0_0.index t (1 : Fin 2) * 128 + 1 * k.val = k.val; omega))))
  · exact (show V c main_v13 (((cfg0.win 1).blk t).view.emb (ix2 p 0)) = V c main_v13 (ix2 ((((cfg0.win 2).blk t).view.emb (ix2 p q)) 0) 0) from
      congrArg (V c main_v13) (funext fun a => Fin.ext (match a with
        | ⟨0, _⟩ => (by show win0_1.index t (0 : Fin 2) * 2000 + 1 * p.val = win0_2.index t (0 : Fin 2) * 2000 + 1 * p.val; omega)
        | ⟨1, _⟩ => (by show win0_1.index t (1 : Fin 2) * 1 + 1 * 0 = 0; omega))))
  · refine Fin.ext ?_
    show q.val = win0_2.index t (1 : Fin 2) * 128 + 1 * q.val
    omega

/-- An index of the output is in point t's block iff its row is one of the point's 2000 rows. -/
theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v17).slice (win0_2.rect t)).set ↔ _
  rw [View.set_slice_whole, Rect.mem_set_unit]
  exact Iff.rfl

/-- Row r lies in the block of point r / 2000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_2 _, ?_⟩
  rw [mem_blk0]
  have eo := (index_facts0 ⟨(i 0).val / 2000, by rw [hN]; omega⟩).1
  have ez := (index_facts0 ⟨(i 0).val / 2000, by rw [hN]; omega⟩).2.1
  intro a
  match a with
  | ⟨0, _⟩ => show win0_2.index _ (0 : Fin 2) * 2000 ≤ (i 0).val ∧ (i 0).val < win0_2.index _ (0 : Fin 2) * 2000 + 2000; rw [eo]; show (i 0).val / 2000 * 2000 ≤ (i 0).val ∧ (i 0).val < (i 0).val / 2000 * 2000 + 2000; omega
  | ⟨1, _⟩ => show win0_2.index _ (1 : Fin 2) * 128 ≤ (i 1).val ∧ (i 1).val < win0_2.index _ (1 : Fin 2) * 128 + 128; rw [ez]; omega

/-- So the region leaves in its output the whole-matrix map of its inputs as it found them. -/
theorem final0 (c : Dev nD) :
    (dat0 V c).arrAt 2 cfg0.N = normScaleCol (V c main_arg0) (V c main_v13) :=
  (dat0 V c).arrAt_eq_of_cover 2 _ (fun t _ => flushed0_eq V c t) cover0

/-! ## Region 1: the residual (aggregate times in-degree factor, plus the input), normalized, clipped, scaled -/

/-- The body's stored value is the block map of the residual block. -/
theorem pay1_eq (x0 : Vec Ideal S2000x128 .f32) (x1 : Vec Ideal S2000x1 .f32) (x2 : Vec Ideal S2000x128 .f32) (x3 : Vec Ideal S2000x1 .f32) :
    k1_pay1 (F := Ideal) x0 x1 x2 x3
      = blockNorm (addf (mulf (shapeCast S2000x128 x0 Facts₀.shapeCasts_S2000x128_S2000x128)
          (broadcastTo S2000x128 (shapeCast S2000x1 x1 Facts₀.shapeCasts_S2000x1_S2000x1) Facts₀.broadcasts_S2000x1_S2000x128)) x2) x3
        Facts₀.reduces_S2000x128_S2000 Facts₀.shapeCasts_S2000_S2000x1
      Facts₀.broadcasts_S2000x1_S2000x128 Facts₀.shapeCasts_S2000x1_S2000x1 := rfl

/-- Every window of the region moves with the grid point along the rows and sits at column block 0. -/
theorem index_facts1 : ∀ t : Fin cfg1.N, win1_4.index t (0 : Fin 2) = t.val
    ∧ win1_4.index t (1 : Fin 2) = 0
    ∧ win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0 :=
  (by decide +kernel : ∀ t : Fin grid1.N, _)

/-- What point t writes back is rows 2000·t … of the whole-matrix map of the four input arrays. -/
theorem flushed1_eq (c : Dev nD) (t : Fin cfg1.N) :
    (dat1 V c).flushed 4 t = ((cfg1.win 4).blk t).view.read (Elt Ideal)
      (normScaleCol (residualCol (V c main_v27) (V c main_v16) (V c main_arg0)) (V c main_v13)) := by
  show (cfg1.win 4).cut (grid1.coords t) ((dat1 V c).after 4 t) = _
  rw [after1_4]
  unfold out1_4
  rw [View.canon_unit_zero offsets_zero]
  simp only [View.ld_unit_zero (S := S2000x128) offsets_zero, View.ld_unit_zero (S := S2000x1) offsets_zero]
  rw [pay1_eq]
  obtain ⟨o0, o1, a0, a1, b0, b1, c0, c1, d0, d1⟩ := index_facts1 t
  funext j
  obtain ⟨p, q, rfl⟩ : ∃ (p : Fin 2000) (q : Fin 128), j = ix2 p q := ⟨j 0, j 1, eq_ix2 j⟩
  refine (blockNorm_apply _ _ _ _ _ _ p q).trans ?_
  show _ = normRelu (fun k => residualCol (V c main_v27) (V c main_v16) (V c main_arg0)
        (ix2 ((((cfg1.win 4).blk t).view.emb (ix2 p q)) 0) k))
    (V c main_v13 (ix2 ((((cfg1.win 4).blk t).view.emb (ix2 p q)) 0) 0)) ((((cfg1.win 4).blk t).view.emb (ix2 p q)) 1)
  refine normRelu_congr (fun k => ?_) ?_ ?_
  · refine (blockResidual_apply _ _ _ _ _ _ p k).trans ?_
    exact congrArg₂ (fun u v : EReal => u + v) (congrArg₂ (fun u v : EReal => u * v)
      (show V c main_v27 (((cfg1.win 0).blk t).view.emb (ix2 p k)) = V c main_v27 (ix2 ((((cfg1.win 4).blk t).view.emb (ix2 p q)) 0) k) from
      congrArg (V c main_v27) (funext fun a => Fin.ext (match a with
        | ⟨0, _⟩ => (by show win1_0.index t (0 : Fin 2) * 2000 + 1 * p.val = win1_4.index t (0 : Fin 2) * 2000 + 1 * p.val; omega)
        | ⟨1, _⟩ => (by show win1_0.index t (1 : Fin 2) * 128 + 1 * k.val = k.val; omega))))
      (show V c main_v16 (((cfg1.win 1).blk t).view.emb (ix2 p 0)) = V c main_v16 (ix2 ((((cfg1.win 4).blk t).view.emb (ix2 p q)) 0) 0) from
      congrArg (V c main_v16) (funext fun a => Fin.ext (match a with
        | ⟨0, _⟩ => (by show win1_1.index t (0 : Fin 2) * 2000 + 1 * p.val = win1_4.index t (0 : Fin 2) * 2000 + 1 * p.val; omega)
        | ⟨1, _⟩ => (by show win1_1.index t (1 : Fin 2) * 1 + 1 * 0 = 0; omega)))))
      (show V c main_arg0 (((cfg1.win 2).blk t).view.emb (ix2 p k)) = V c main_arg0 (ix2 ((((cfg1.win 4).blk t).view.emb (ix2 p q)) 0) k) from
      congrArg (V c main_arg0) (funext fun a => Fin.ext (match a with
        | ⟨0, _⟩ => (by show win1_2.index t (0 : Fin 2) * 2000 + 1 * p.val = win1_4.index t (0 : Fin 2) * 2000 + 1 * p.val; omega)
        | ⟨1, _⟩ => (by show win1_2.index t (1 : Fin 2) * 128 + 1 * k.val = k.val; omega))))
  · exact (show V c main_v13 (((cfg1.win 3).blk t).view.emb (ix2 p 0)) = V c main_v13 (ix2 ((((cfg1.win 4).blk t).view.emb (ix2 p q)) 0) 0) from
      congrArg (V c main_v13) (funext fun a => Fin.ext (match a with
        | ⟨0, _⟩ => (by show win1_3.index t (0 : Fin 2) * 2000 + 1 * p.val = win1_4.index t (0 : Fin 2) * 2000 + 1 * p.val; omega)
        | ⟨1, _⟩ => (by show win1_3.index t (1 : Fin 2) * 1 + 1 * 0 = 0; omega))))
  · refine Fin.ext ?_
    show q.val = win1_4.index t (1 : Fin 2) * 128 + 1 * q.val
    omega

/-- An index of the output is in point t's block iff its row is one of the point's 2000 rows. -/
theorem mem_blk1 (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v28).slice (win1_4.rect t)).set ↔ _
  rw [View.set_slice_whole, Rect.mem_set_unit]
  exact Iff.rfl

/-- Row r lies in the block of point r / 2000. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_4 _, ?_⟩
  rw [mem_blk1]
  have eo := (index_facts1 ⟨(i 0).val / 2000, by rw [hN]; omega⟩).1
  have ez := (index_facts1 ⟨(i 0).val / 2000, by rw [hN]; omega⟩).2.1
  intro a
  match a with
  | ⟨0, _⟩ => show win1_4.index _ (0 : Fin 2) * 2000 ≤ (i 0).val ∧ (i 0).val < win1_4.index _ (0 : Fin 2) * 2000 + 2000; rw [eo]; show (i 0).val / 2000 * 2000 ≤ (i 0).val ∧ (i 0).val < (i 0).val / 2000 * 2000 + 2000; omega
  | ⟨1, _⟩ => show win1_4.index _ (1 : Fin 2) * 128 ≤ (i 1).val ∧ (i 1).val < win1_4.index _ (1 : Fin 2) * 128 + 128; rw [ez]; omega

/-- So the region leaves in its output the whole-matrix map of its inputs as it found them. -/
theorem final1 (c : Dev nD) :
    (dat1 V c).arrAt 4 cfg1.N = normScaleCol (residualCol (V c main_v27) (V c main_v16) (V c main_arg0)) (V c main_v13) :=
  (dat1 V c).arrAt_eq_of_cover 4 _ (fun t _ => flushed1_eq V c t) cover1

/-! ## Region 2: the second aggregate times the in-degree factor -/

/-- The body's stored value is the block times the column of factors. -/
theorem pay2_eq (x0 : Vec Ideal S2000x128 .f32) (x1 : Vec Ideal S2000x1 .f32) :
    k2_pay1 (F := Ideal) x0 x1 = mulf (shapeCast S2000x128 x0 Facts₀.shapeCasts_S2000x128_S2000x128)
      (broadcastTo S2000x128 (shapeCast S2000x1 x1 Facts₀.shapeCasts_S2000x1_S2000x1) Facts₀.broadcasts_S2000x1_S2000x128) := rfl

/-- Every window of the region moves with the grid point along the rows and sits at column block 0. -/
theorem index_facts2 : ∀ t : Fin cfg2.N, win2_2.index t (0 : Fin 2) = t.val
    ∧ win2_2.index t (1 : Fin 2) = 0
    ∧ win2_0.index t (0 : Fin 2) = t.val
    ∧ win2_0.index t (1 : Fin 2) = 0
    ∧ win2_1.index t (0 : Fin 2) = t.val
    ∧ win2_1.index t (1 : Fin 2) = 0 :=
  (by decide +kernel : ∀ t : Fin grid2.N, _)

/-- What point t writes back is rows 2000·t … of the whole-matrix map of the two input arrays. -/
theorem flushed2_eq (c : Dev nD) (t : Fin cfg2.N) :
    (dat2 V c).flushed 2 t = ((cfg2.win 2).blk t).view.read (Elt Ideal)
      (scaleRowsCol (V c main_v38) (V c main_v16)) := by
  show (cfg2.win 2).cut (grid2.coords t) ((dat2 V c).after 2 t) = _
  rw [after2_2]
  unfold out2_2
  rw [View.canon_unit_zero offsets_zero]
  simp only [View.ld_unit_zero (S := S2000x128) offsets_zero, View.ld_unit_zero (S := S2000x1) offsets_zero]
  rw [pay2_eq]
  obtain ⟨o0, o1, a0, a1, b0, b1⟩ := index_facts2 t
  funext j
  obtain ⟨p, q, rfl⟩ : ∃ (p : Fin 2000) (q : Fin 128), j = ix2 p q := ⟨j 0, j 1, eq_ix2 j⟩
  refine (blockScaleCast_apply _ _ _ _ _ p q).trans ?_
  show _ = scaleRowsCol (V c main_v38) (V c main_v16) (((cfg2.win 2).blk t).view.emb (ix2 p q))
  exact congrArg₂ (fun u v : EReal => u * v)
    (show V c main_v38 (((cfg2.win 0).blk t).view.emb (ix2 p q)) = V c main_v38 (((cfg2.win 2).blk t).view.emb (ix2 p q)) from
      congrArg (V c main_v38) (funext fun a => Fin.ext (match a with
        | ⟨0, _⟩ => (by show win2_0.index t (0 : Fin 2) * 2000 + 1 * p.val = win2_2.index t (0 : Fin 2) * 2000 + 1 * p.val; omega)
        | ⟨1, _⟩ => (by show win2_0.index t (1 : Fin 2) * 128 + 1 * q.val = win2_2.index t (1 : Fin 2) * 128 + 1 * q.val; omega))))
    (show V c main_v16 (((cfg2.win 1).blk t).view.emb (ix2 p 0)) = V c main_v16 (ix2 ((((cfg2.win 2).blk t).view.emb (ix2 p q)) 0) 0) from
      congrArg (V c main_v16) (funext fun a => Fin.ext (match a with
        | ⟨0, _⟩ => (by show win2_1.index t (0 : Fin 2) * 2000 + 1 * p.val = win2_2.index t (0 : Fin 2) * 2000 + 1 * p.val; omega)
        | ⟨1, _⟩ => (by show win2_1.index t (1 : Fin 2) * 1 + 1 * 0 = 0; omega))))

/-- An index of the output is in point t's block iff its row is one of the point's 2000 rows. -/
theorem mem_blk2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v39).slice (win2_2.rect t)).set ↔ _
  rw [View.set_slice_whole, Rect.mem_set_unit]
  exact Iff.rfl

/-- Row r lies in the block of point r / 2000. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  refine ⟨⟨(i 0).val / 2000, by rw [hN]; omega⟩, flush2_2 _, ?_⟩
  rw [mem_blk2]
  have eo := (index_facts2 ⟨(i 0).val / 2000, by rw [hN]; omega⟩).1
  have ez := (index_facts2 ⟨(i 0).val / 2000, by rw [hN]; omega⟩).2.1
  intro a
  match a with
  | ⟨0, _⟩ => show win2_2.index _ (0 : Fin 2) * 2000 ≤ (i 0).val ∧ (i 0).val < win2_2.index _ (0 : Fin 2) * 2000 + 2000; rw [eo]; show (i 0).val / 2000 * 2000 ≤ (i 0).val ∧ (i 0).val < (i 0).val / 2000 * 2000 + 2000; omega
  | ⟨1, _⟩ => show win2_2.index _ (1 : Fin 2) * 128 ≤ (i 1).val ∧ (i 1).val < win2_2.index _ (1 : Fin 2) * 128 + 128; rw [ez]; omega

/-- So the region leaves in its output the whole-matrix map of its inputs as it found them. -/
theorem final2 (c : Dev nD) :
    (dat2 V c).arrAt 2 cfg2.N = scaleRowsCol (V c main_v38) (V c main_v16) :=
  (dat2 V c).arrAt_eq_of_cover 2 _ (fun t _ => flushed2_eq V c t) cover2

end Cert.KernelIdeal.Blocks

end
-- ==== Proof.KernelNamed.lean ====
/-
  The kernel program's run with its result named. The program is five stretches of host operations,
  a grid region, a stretch, a region, a stretch, a region; the contents of every buffer at each of the
  ten boundaries are a fold from the launch memory (a stretch applies its operations; a region leaves
  its input arrays as found and its output at what the grid's write-backs leave). Every weakly fair
  execution ends with every unscoped buffer at the last boundary's contents — in particular the result
  matrix, which this file states, beside the two argument arrays ending as launched.
-/
import proofs.«119341_j34720515620918_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result matrix ends at the last
    boundary's contents of its buffer, and the arguments end as launched. -/
theorem run_named : θ_run defs (onTc (τ := τ) (main (F := F))) ⟨m, fun _ => 0, ρ⟩ (fun r => ∀ c : Dev nD,
      r.2.mem ((c.tc : Thread nD τ).loc main_v39) = W10 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v39 (by decide)),
       (h c _ (mem_uc main_arg0 (by decide))).trans (W10_main_arg0 m ρ c),
       (h c _ (mem_uc main_arg1 (by decide))).trans (W10_main_arg1 m ρ c)⟩)

end Cert.KernelIdeal.Named

end
-- ==== Proof.RefRead.lean ====
/-
  The reference program, read entry by entry. It normalizes the whole 50000 × 128 matrix at once:
  a sum along the columns, the sums laid out as a column and repeated across the columns, pointwise
  arithmetic. Read at an index (r, c), every stage depends on row r alone, and the stages compose to
  the row map of RowNorm — once for the input matrix (first layer) and once for the residual matrix
  (second layer). The remaining host stages between and after the two passes (gather along edges,
  scatter-add into nodes) are kept as whole-array operations and are not opened here.
-/
import proofs.«119341_j34720515620918_1_alg».proof.Proof.Gen.ReferenceIdeal.Read
import proofs.«119341_j34720515620918_1_alg».proof.Proof.RowNorm

noncomputable section

open scoped BigOperators

namespace Cert.ReferenceIdeal.RefValue

open Idealize.ShloMosaic Idealize.ShloMosaic.ValueIdx Cert.ReferenceIdeal Cert.ReferenceIdeal.Read Cert.RowNorm

/-! ## The first pass: the input matrix -/

/-- The broadcast column of means holds, in row r, the mean of row r of the source. -/
theorem mean1 (x0 : (⟨S50000x128, .f32⟩ : BufTy).Contents (Elt Ideal)) (r : Fin 50000) (z : Fin 1) :
    val_main_v18 (F := Ideal) x0 (ix2 r z) = rowMean (fun k => x0 (ix2 r k)) := by
  rw [val_main_v18_apply, val_main_v16_apply, val_main_v17_apply, val_main_v15_apply, val_main_cst_4_apply, val_main_cst_5_apply]
  show Ideal.div (Ideal.ofBits .f32 0x00000000#32 + ∑ k : Fin 128, x0 (idx_main_v15 (idx_main_v16 (ix2 r z)) k)) w128
    = Ideal.div (∑ k : Fin 128, x0 (ix2 r k)) w128
  rw [Ideal.ofBits_zero_f32, zero_add]
  refine congrArg (fun t => Ideal.div t w128) (Finset.sum_congr rfl fun k _ => congrArg x0 ?_)
  exact (funext fun a => match a with
      | ⟨0, _⟩ => rfl
      | ⟨1, _⟩ => rfl)

/-- The deviations (both copies the program keeps) are the entries minus their row's mean. -/
theorem dev1 (x0 : (⟨S50000x128, .f32⟩ : BufTy).Contents (Elt Ideal)) (r : Fin 50000) (c : Fin 128) :
    val_main_v20 (F := Ideal) x0 (ix2 r c) = x0 (ix2 r c) - rowMean (fun k => x0 (ix2 r k)) := by
  rw [val_main_v20_apply, val_main_v19_apply]
  have e : idx_main_v19 (ix2 r c) = ix2 r (0 : Fin 1) := (funext fun a => match a with
      | ⟨0, _⟩ => rfl
      | ⟨1, _⟩ => rfl)
  rw [e, mean1]
  rfl

theorem dev1' (x0 : (⟨S50000x128, .f32⟩ : BufTy).Contents (Elt Ideal)) (r : Fin 50000) (c : Fin 128) :
    val_main_v27 (F := Ideal) x0 (ix2 r c) = x0 (ix2 r c) - rowMean (fun k => x0 (ix2 r k)) := by
  rw [val_main_v27_apply, val_main_v26_apply]
  have e : idx_main_v26 (ix2 r c) = ix2 r (0 : Fin 1) := (funext fun a => match a with
      | ⟨0, _⟩ => rfl
      | ⟨1, _⟩ => rfl)
  rw [e, mean1]
  rfl

/-- The column of inverse deviations holds, in row r, (variance of row r + ε)^(−1/2). -/
theorem inv1 (x0 : (⟨S50000x128, .f32⟩ : BufTy).Contents (Elt Ideal)) (r : Fin 50000) (z : Fin 1) :
    val_main_v30 (F := Ideal) x0 (ix2 r z) = Ideal.rsqrt (rowVar (fun k => x0 (ix2 r k)) + wEps) := by
  rw [val_main_v30_apply, val_main_v29_apply, val_main_v25_apply, val_main_v28_apply, val_main_v23_apply, val_main_v24_apply,
    val_main_v22_apply, val_main_cst_6_apply, val_main_cst_7_apply, val_main_cst_8_apply]
  show Ideal.rsqrt (Ideal.div (Ideal.ofBits .f32 0x00000000#32 + ∑ k : Fin 128, val_main_v21 (F := Ideal) x0 (idx_main_v22 (idx_main_v23 (ix2 r z)) k)) w128 + wEps)
    = Ideal.rsqrt (Ideal.div (∑ k : Fin 128, (x0 (ix2 r k) - rowMean (fun k => x0 (ix2 r k))) * (x0 (ix2 r k) - rowMean (fun k => x0 (ix2 r k)))) w128 + wEps)
  rw [Ideal.ofBits_zero_f32, zero_add]
  refine congrArg (fun t => Ideal.rsqrt (Ideal.div t w128 + wEps)) (Finset.sum_congr rfl fun k _ => ?_)
  have e : idx_main_v22 (idx_main_v23 (ix2 r z)) k = ix2 r k := (funext fun a => match a with
      | ⟨0, _⟩ => rfl
      | ⟨1, _⟩ => rfl)
  rw [e, val_main_v21_apply]
  show val_main_v20 (F := Ideal) x0 (ix2 r k) * val_main_v20 (F := Ideal) x0 (ix2 r k) = _
  rw [dev1]

/-- The pass's result at (r, c) is the row map at row r of the source and the out-degree factor of node r. -/
theorem norm1_apply (x0 : (⟨S50000x128, .f32⟩ : BufTy).Contents (Elt Ideal)) (x1 : (⟨S2x800000, .i32⟩ : BufTy).Contents (Elt Ideal)) (r : Fin 50000) (c : Fin 128) :
    val_main_v36 (F := Ideal) x0 x1 (ix2 r c) = normRelu (fun k => x0 (ix2 r k)) (val_main_v12 (F := Ideal) x1 (ix1 r)) c := by
  rw [val_main_v36_apply, val_main_v33_apply, val_main_v32_apply, val_main_v31_apply, val_main_v35_apply, val_main_v34_apply,
    val_main_call2_v0_apply, val_main_call2_cst_apply]
  have e31 : idx_main_v31 (ix2 r c) = ix2 r (0 : Fin 1) := (funext fun a => match a with
      | ⟨0, _⟩ => rfl
      | ⟨1, _⟩ => rfl)
  have e35 : idx_main_v34 (idx_main_v35 (ix2 r c)) = ix1 r := funext fun a => match a with
      | ⟨0, _⟩ => rfl
  rw [e31, e35, inv1, dev1']
  rfl

/-! ## The second pass: the residual matrix -/

/-- The broadcast column of means holds, in row r, the mean of row r of the source. -/
theorem mean2 (x0 : (⟨S50000x128, .f32⟩ : BufTy).Contents (Elt Ideal)) (x1 : (⟨S2x800000, .i32⟩ : BufTy).Contents (Elt Ideal)) (r : Fin 50000) (z : Fin 1) :
    val_main_v54 (F := Ideal) x0 x1 (ix2 r z) = rowMean (fun k => (val_main_v50 (F := Ideal) x0 x1) (ix2 r k)) := by
  rw [val_main_v54_apply, val_main_v52_apply, val_main_v53_apply, val_main_v51_apply, val_main_cst_11_apply, val_main_cst_12_apply]
  show Ideal.div (Ideal.ofBits .f32 0x00000000#32 + ∑ k : Fin 128, (val_main_v50 (F := Ideal) x0 x1) (idx_main_v51 (idx_main_v52 (ix2 r z)) k)) w128
    = Ideal.div (∑ k : Fin 128, (val_main_v50 (F := Ideal) x0 x1) (ix2 r k)) w128
  rw [Ideal.ofBits_zero_f32, zero_add]
  refine congrArg (fun t => Ideal.div t w128) (Finset.sum_congr rfl fun k _ => congrArg (val_main_v50 (F := Ideal) x0 x1) ?_)
  exact (funext fun a => match a with
      | ⟨0, _⟩ => rfl
      | ⟨1, _⟩ => rfl)

/-- The deviations (both copies the program keeps) are the entries minus their row's mean. -/
theorem dev2 (x0 : (⟨S50000x128, .f32⟩ : BufTy).Contents (Elt Ideal)) (x1 : (⟨S2x800000, .i32⟩ : BufTy).Contents (Elt Ideal)) (r : Fin 50000) (c : Fin 128) :
    val_main_v56 (F := Ideal) x0 x1 (ix2 r c) = (val_main_v50 (F := Ideal) x0 x1) (ix2 r c) - rowMean (fun k => (val_main_v50 (F := Ideal) x0 x1) (ix2 r k)) := by
  rw [val_main_v56_apply, val_main_v55_apply]
  have e : idx_main_v55 (ix2 r c) = ix2 r (0 : Fin 1) := (funext fun a => match a with
      | ⟨0, _⟩ => rfl
      | ⟨1, _⟩ => rfl)
  rw [e, mean2]
  rfl

theorem dev2' (x0 : (⟨S50000x128, .f32⟩ : BufTy).Contents (Elt Ideal)) (x1 : (⟨S2x800000, .i32⟩ : BufTy).Contents (Elt Ideal)) (r : Fin 50000) (c : Fin 128) :
    val_main_v63 (F := Ideal) x0 x1 (ix2 r c) = (val_main_v50 (F := Ideal) x0 x1) (ix2 r c) - rowMean (fun k => (val_main_v50 (F := Ideal) x0 x1) (ix2 r k)) := by
  rw [val_main_v63_apply, val_main_v62_apply]
  have e : idx_main_v62 (ix2 r c) = ix2 r (0 : Fin 1) := (funext fun a => match a with
      | ⟨0, _⟩ => rfl
      | ⟨1, _⟩ => rfl)
  rw [e, mean2]
  rfl

/-- The column of inverse deviations holds, in row r, (variance of row r + ε)^(−1/2). -/
theorem inv2 (x0 : (⟨S50000x128, .f32⟩ : BufTy).Contents (Elt Ideal)) (x1 : (⟨S2x800000, .i32⟩ : BufTy).Contents (Elt Ideal)) (r : Fin 50000) (z : Fin 1) :
    val_main_v66 (F := Ideal) x0 x1 (ix2 r z) = Ideal.rsqrt (rowVar (fun k => (val_main_v50 (F := Ideal) x0 x1) (ix2 r k)) + wEps) := by
  rw [val_main_v66_apply, val_main_v65_apply, val_main_v61_apply, val_main_v64_apply, val_main_v59_apply, val_main_v60_apply,
    val_main_v58_apply, val_main_cst_13_apply, val_main_cst_14_apply, val_main_cst_15_apply]
  show Ideal.rsqrt (Ideal.div (Ideal.ofBits .f32 0x00000000#32 + ∑ k : Fin 128, val_main_v57 (F := Ideal) x0 x1 (idx_main_v58 (idx_main_v59 (ix2 r z)) k)) w128 + wEps)
    = Ideal.rsqrt (Ideal.div (∑ k : Fin 128, ((val_main_v50 (F := Ideal) x0 x1) (ix2 r k) - rowMean (fun k => (val_main_v50 (F := Ideal) x0 x1) (ix2 r k))) * ((val_main_v50 (F := Ideal) x0 x1) (ix2 r k) - rowMean (fun k => (val_main_v50 (F := Ideal) x0 x1) (ix2 r k)))) w128 + wEps)
  rw [Ideal.ofBits_zero_f32, zero_add]
  refine congrArg (fun t => Ideal.rsqrt (Ideal.div t w128 + wEps)) (Finset.sum_congr rfl fun k _ => ?_)
  have e : idx_main_v58 (idx_main_v59 (ix2 r z)) k = ix2 r k := (funext fun a => match a with
      | ⟨0, _⟩ => rfl
      | ⟨1, _⟩ => rfl)
  rw [e, val_main_v57_apply]
  show val_main_v56 (F := Ideal) x0 x1 (ix2 r k) * val_main_v56 (F := Ideal) x0 x1 (ix2 r k) = _
  rw [dev2]

/-- The pass's result at (r, c) is the row map at row r of the source and the out-degree factor of node r. -/
theorem norm2_apply (x0 : (⟨S50000x128, .f32⟩ : BufTy).Contents (Elt Ideal)) (x1 : (⟨S2x800000, .i32⟩ : BufTy).Contents (Elt Ideal)) (r : Fin 50000) (c : Fin 128) :
    val_main_v72 (F := Ideal) x0 x1 (ix2 r c) = normRelu (fun k => (val_main_v50 (F := Ideal) x0 x1) (ix2 r k)) (val_main_v12 (F := Ideal) x1 (ix1 r)) c := by
  rw [val_main_v72_apply, val_main_v69_apply, val_main_v68_apply, val_main_v67_apply, val_main_v71_apply, val_main_v70_apply,
    val_main_call3_v0_apply, val_main_call3_cst_apply]
  have e31 : idx_main_v67 (ix2 r c) = ix2 r (0 : Fin 1) := (funext fun a => match a with
      | ⟨0, _⟩ => rfl
      | ⟨1, _⟩ => rfl)
  have e35 : idx_main_v70 (idx_main_v71 (ix2 r c)) = ix1 r := funext fun a => match a with
      | ⟨0, _⟩ => rfl
  rw [e31, e35, inv2, dev2']
  rfl

/-! ## The passes as whole-matrix maps, and the two row-wise host stages around them -/

/-- First layer: the input normalized row by row and scaled by the out-degree factors. -/
theorem first_layer (x0 : (⟨S50000x128, .f32⟩ : BufTy).Contents (Elt Ideal)) (x1 : (⟨S2x800000, .i32⟩ : BufTy).Contents (Elt Ideal)) :
    val_main_v36 (F := Ideal) x0 x1 = normScale x0 (val_main_v12 (F := Ideal) x1) := by
  funext i
  obtain ⟨r, c, rfl⟩ : ∃ (r : Fin 50000) (c : Fin 128), i = ix2 r c := ⟨i 0, i 1, eq_ix2 i⟩
  exact norm1_apply x0 x1 r c

/-- The residual: the first aggregate times the in-degree factors, plus the input. -/
theorem residual_eq (x0 : (⟨S50000x128, .f32⟩ : BufTy).Contents (Elt Ideal)) (x1 : (⟨S2x800000, .i32⟩ : BufTy).Contents (Elt Ideal)) :
    val_main_v50 (F := Ideal) x0 x1 = residual (val_main_v46 (F := Ideal) x0 x1) (val_main_v14 (F := Ideal) x1) x0 := by
  funext i
  obtain ⟨r, c, rfl⟩ : ∃ (r : Fin 50000) (c : Fin 128), i = ix2 r c := ⟨i 0, i 1, eq_ix2 i⟩
  rw [val_main_v50_apply, val_main_v49_apply, val_main_v48_apply, val_main_v47_apply]
  have e : idx_main_v47 (idx_main_v48 (ix2 r c)) = ix1 r := funext fun a => match a with
      | ⟨0, _⟩ => rfl
  rw [e]
  rfl

/-- Second layer: the residual normalized row by row and scaled by the out-degree factors. -/
theorem second_layer (x0 : (⟨S50000x128, .f32⟩ : BufTy).Contents (Elt Ideal)) (x1 : (⟨S2x800000, .i32⟩ : BufTy).Contents (Elt Ideal)) :
    val_main_v72 (F := Ideal) x0 x1 = normScale (val_main_v50 (F := Ideal) x0 x1) (val_main_v12 (F := Ideal) x1) := by
  funext i
  obtain ⟨r, c, rfl⟩ : ∃ (r : Fin 50000) (c : Fin 128), i = ix2 r c := ⟨i 0, i 1, eq_ix2 i⟩
  exact norm2_apply x0 x1 r c

/-- The result: the second aggregate times the in-degree factors. -/
theorem result_eq (x0 : (⟨S50000x128, .f32⟩ : BufTy).Contents (Elt Ideal)) (x1 : (⟨S2x800000, .i32⟩ : BufTy).Contents (Elt Ideal)) :
    val_main_v85 (F := Ideal) x0 x1 = scaleRows (val_main_v82 (F := Ideal) x0 x1) (val_main_v14 (F := Ideal) x1) := by
  funext i
  obtain ⟨r, c, rfl⟩ : ∃ (r : Fin 50000) (c : Fin 128), i = ix2 r c := ⟨i 0, i 1, eq_ix2 i⟩
  rw [val_main_v85_apply, val_main_v84_apply, val_main_v83_apply]
  have e : idx_main_v83 (idx_main_v84 (ix2 r c)) = ix1 r := funext fun a => match a with
      | ⟨0, _⟩ => rfl
  rw [e]
  rfl

end Cert.ReferenceIdeal.RefValue

end
-- ==== Proof.KernelWalk.lean ====
/-
  The contents of the kernel program's buffers, boundary by boundary, as functions of the two argument
  arrays. The host stretches of the kernel program are, operation for operation, the reference's own
  host operations (the edge rows, the degree counts, their clamped inverse square roots, the gather
  along edges and the scatter-add into nodes), so each such buffer holds the reference's value of the
  corresponding stage; the three grid regions leave the whole-matrix maps of RowNorm (KernelBlocks),
  which are the reference's normalization passes and row scalings (RefRead). Walking the boundaries in
  order, the result matrix ends at the reference's result term.
-/
import proofs.«119341_j34720515620918_1_alg».proof.Proof.KernelBlocks
import proofs.«119341_j34720515620918_1_alg».proof.Proof.KernelNamed
import proofs.«119341_j34720515620918_1_alg».proof.Proof.RefRead
import Idealize.ShloMosaic.Lib.StableHlo.Run

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen Cert.KernelIdeal.Blocks Cert.RowNorm
open Cert.ReferenceIdeal.Read (val_main_v1 val_main_v3 val_main_v7 val_main_v10 val_main_v11 val_main_v12 val_main_v13 val_main_v14 val_main_v36 val_main_v46 val_main_v50
  val_main_v72 val_main_v82 val_main_v85)
open Cert.ReferenceIdeal.RefValue (first_layer residual_eq second_layer result_eq)

variable (m : (ℓ : Loc nD τ sig) → Buf (Elt Ideal) ℓ) (ρ : Dev nD → PrngReg)

/-! ## The host stretches before the first region, each over any contents it starts from -/

theorem s0_src (W : Valuation τ sig (Elt Ideal)) :
    after hostOps0 W (Proc.devRef .tc main_v1) = val_main_v1 (F := Ideal) (W (Proc.devRef .tc main_arg1)) := by
  dsimp only [hostOps0]
  after_results_simp
  rfl
theorem s0_dst (W : Valuation τ sig (Elt Ideal)) :
    after hostOps0 W (Proc.devRef .tc main_v3) = val_main_v3 (F := Ideal) (W (Proc.devRef .tc main_arg1)) := by
  dsimp only [hostOps0]
  after_results_simp
  rfl
/-- The out-degree counts: ones added into the source node of every edge. -/
theorem s0_outdeg (W : Valuation τ sig (Elt Ideal)) :
    after hostOps0 W (Proc.devRef .tc main_v7) = val_main_v7 (F := Ideal) (W (Proc.devRef .tc main_arg1)) := by
  dsimp only [hostOps0]
  after_results_simp
  rfl
/-- The in-degree counts: ones added into the target node of every edge. -/
theorem s0_indeg (W : Valuation τ sig (Elt Ideal)) :
    after hostOps0 W (Proc.devRef .tc main_v10) = val_main_v10 (F := Ideal) (W (Proc.devRef .tc main_arg1)) := by
  dsimp only [hostOps0]
  after_results_simp
  rfl
theorem s0_one (W : Valuation τ sig (Elt Ideal)) :
    after hostOps0 W (Proc.devRef .tc main_cst_2) = (constant S_ .f32 0x3F800000#32 : FVec Ideal S_ .f32) := by
  dsimp only [hostOps0]
  after_results_simp
theorem keep0_arg0 (W : Valuation τ sig (Elt Ideal)) : after hostOps0 W (Proc.devRef .tc main_arg0) = W (Proc.devRef .tc main_arg0) := by
  dsimp only [hostOps0]
  after_results_simp

/-- The clamp of the out-degrees below at one. -/
theorem s1_clamp (W : Valuation τ sig (Elt Ideal)) :
    after hostOps0_1 W (Proc.devRef .tc main_v11)
      = (maximumf (broadcastInDim S50000 ![] Facts₀.bcast_S_S50000 (W (Proc.devRef .tc main_cst_2) : FVec Ideal S_ .f32))
          (W (Proc.devRef .tc main_v7) : FVec Ideal S50000 .f32) : FVec Ideal S50000 .f32) := by
  dsimp only [hostOps0_1]
  after_results_simp
  rfl
theorem keep1_v1 (W : Valuation τ sig (Elt Ideal)) : after hostOps0_1 W (Proc.devRef .tc main_v1) = W (Proc.devRef .tc main_v1) := by
  dsimp only [hostOps0_1]
  after_results_simp
theorem keep1_v3 (W : Valuation τ sig (Elt Ideal)) : after hostOps0_1 W (Proc.devRef .tc main_v3) = W (Proc.devRef .tc main_v3) := by
  dsimp only [hostOps0_1]
  after_results_simp
theorem keep1_v10 (W : Valuation τ sig (Elt Ideal)) : after hostOps0_1 W (Proc.devRef .tc main_v10) = W (Proc.devRef .tc main_v10) := by
  dsimp only [hostOps0_1]
  after_results_simp
theorem keep1_arg0 (W : Valuation τ sig (Elt Ideal)) : after hostOps0_1 W (Proc.devRef .tc main_arg0) = W (Proc.devRef .tc main_arg0) := by
  dsimp only [hostOps0_1]
  after_results_simp

/-- Its inverse square root, as a one-column matrix. -/
theorem s2_col (W : Valuation τ sig (Elt Ideal)) :
    after hostOps0_2 W (Proc.devRef .tc main_v13)
      = (shapeCast S50000x1 (Host.rsqrt (W (Proc.devRef .tc main_v11) : FVec Ideal S50000 .f32) : FVec Ideal S50000 .f32)
          Facts₀.shapeCasts_S50000_S50000x1 : FVec Ideal S50000x1 .f32) := by
  dsimp only [hostOps0_2]
  after_results_simp
  rfl
theorem s2_one (W : Valuation τ sig (Elt Ideal)) :
    after hostOps0_2 W (Proc.devRef .tc main_cst_3) = (constant S_ .f32 0x3F800000#32 : FVec Ideal S_ .f32) := by
  dsimp only [hostOps0_2]
  after_results_simp
theorem keep2_v1 (W : Valuation τ sig (Elt Ideal)) : after hostOps0_2 W (Proc.devRef .tc main_v1) = W (Proc.devRef .tc main_v1) := by
  dsimp only [hostOps0_2]
  after_results_simp
theorem keep2_v3 (W : Valuation τ sig (Elt Ideal)) : after hostOps0_2 W (Proc.devRef .tc main_v3) = W (Proc.devRef .tc main_v3) := by
  dsimp only [hostOps0_2]
  after_results_simp
theorem keep2_v10 (W : Valuation τ sig (Elt Ideal)) : after hostOps0_2 W (Proc.devRef .tc main_v10) = W (Proc.devRef .tc main_v10) := by
  dsimp only [hostOps0_2]
  after_results_simp
theorem keep2_arg0 (W : Valuation τ sig (Elt Ideal)) : after hostOps0_2 W (Proc.devRef .tc main_arg0) = W (Proc.devRef .tc main_arg0) := by
  dsimp only [hostOps0_2]
  after_results_simp

/-- The clamp of the in-degrees below at one. -/
theorem s3_clamp (W : Valuation τ sig (Elt Ideal)) :
    after hostOps0_3 W (Proc.devRef .tc main_v14)
      = (maximumf (broadcastInDim S50000 ![] Facts₀.bcast_S_S50000 (W (Proc.devRef .tc main_cst_3) : FVec Ideal S_ .f32))
          (W (Proc.devRef .tc main_v10) : FVec Ideal S50000 .f32) : FVec Ideal S50000 .f32) := by
  dsimp only [hostOps0_3]
  after_results_simp
  rfl
theorem keep3_v1 (W : Valuation τ sig (Elt Ideal)) : after hostOps0_3 W (Proc.devRef .tc main_v1) = W (Proc.devRef .tc main_v1) := by
  dsimp only [hostOps0_3]
  after_results_simp
theorem keep3_v3 (W : Valuation τ sig (Elt Ideal)) : after hostOps0_3 W (Proc.devRef .tc main_v3) = W (Proc.devRef .tc main_v3) := by
  dsimp only [hostOps0_3]
  after_results_simp
theorem keep3_v13 (W : Valuation τ sig (Elt Ideal)) : after hostOps0_3 W (Proc.devRef .tc main_v13) = W (Proc.devRef .tc main_v13) := by
  dsimp only [hostOps0_3]
  after_results_simp
theorem keep3_arg0 (W : Valuation τ sig (Elt Ideal)) : after hostOps0_3 W (Proc.devRef .tc main_arg0) = W (Proc.devRef .tc main_arg0) := by
  dsimp only [hostOps0_3]
  after_results_simp

/-- Its inverse square root, as a one-column matrix. -/
theorem s4_col (W : Valuation τ sig (Elt Ideal)) :
    after hostOps0_4 W (Proc.devRef .tc main_v16)
      = (shapeCast S50000x1 (Host.rsqrt (W (Proc.devRef .tc main_v14) : FVec Ideal S50000 .f32) : FVec Ideal S50000 .f32)
          Facts₀.shapeCasts_S50000_S50000x1 : FVec Ideal S50000x1 .f32) := by
  dsimp only [hostOps0_4]
  after_results_simp
  rfl
theorem keep4_v1 (W : Valuation τ sig (Elt Ideal)) : after hostOps0_4 W (Proc.devRef .tc main_v1) = W (Proc.devRef .tc main_v1) := by
  dsimp only [hostOps0_4]
  after_results_simp
theorem keep4_v3 (W : Valuation τ sig (Elt Ideal)) : after hostOps0_4 W (Proc.devRef .tc main_v3) = W (Proc.devRef .tc main_v3) := by
  dsimp only [hostOps0_4]
  after_results_simp
theorem keep4_v13 (W : Valuation τ sig (Elt Ideal)) : after hostOps0_4 W (Proc.devRef .tc main_v13) = W (Proc.devRef .tc main_v13) := by
  dsimp only [hostOps0_4]
  after_results_simp
theorem keep4_arg0 (W : Valuation τ sig (Elt Ideal)) : after hostOps0_4 W (Proc.devRef .tc main_arg0) = W (Proc.devRef .tc main_arg0) := by
  dsimp only [hostOps0_4]
  after_results_simp

/-! ## The contents at the first region's entry: the edge rows, the input, the two degree-factor columns -/

theorem src5 (c : Dev nD) : W5 m ρ c (Proc.devRef .tc main_v1) = val_main_v1 (F := Ideal) (m ((c : Thread nD τ).loc main_arg1)) :=
  (keep4_v1 (W4 m ρ c)).trans ((keep3_v1 (W3 m ρ c)).trans ((keep2_v1 (W2 m ρ c)).trans ((keep1_v1 (W1 m ρ c)).trans (s0_src (W0 m ρ c)))))
theorem dst5 (c : Dev nD) : W5 m ρ c (Proc.devRef .tc main_v3) = val_main_v3 (F := Ideal) (m ((c : Thread nD τ).loc main_arg1)) :=
  (keep4_v3 (W4 m ρ c)).trans ((keep3_v3 (W3 m ρ c)).trans ((keep2_v3 (W2 m ρ c)).trans ((keep1_v3 (W1 m ρ c)).trans (s0_dst (W0 m ρ c)))))
theorem inp5 (c : Dev nD) : W5 m ρ c (Proc.devRef .tc main_arg0) = m ((c : Thread nD τ).loc main_arg0) :=
  (keep4_arg0 (W4 m ρ c)).trans ((keep3_arg0 (W3 m ρ c)).trans ((keep2_arg0 (W2 m ρ c)).trans ((keep1_arg0 (W1 m ρ c)).trans (keep0_arg0 (W0 m ρ c)))))

theorem one1 (c : Dev nD) : W1 m ρ c (Proc.devRef .tc main_cst_2) = (constant S_ .f32 0x3F800000#32 : FVec Ideal S_ .f32) := s0_one (W0 m ρ c)
theorem outdeg1 (c : Dev nD) : W1 m ρ c (Proc.devRef .tc main_v7) = val_main_v7 (F := Ideal) (m ((c : Thread nD τ).loc main_arg1)) := s0_outdeg (W0 m ρ c)
theorem indeg1 (c : Dev nD) : W1 m ρ c (Proc.devRef .tc main_v10) = val_main_v10 (F := Ideal) (m ((c : Thread nD τ).loc main_arg1)) := s0_indeg (W0 m ρ c)

/-- The clamped out-degrees are the reference's. -/
theorem outclamp2 (c : Dev nD) : W2 m ρ c (Proc.devRef .tc main_v11) = val_main_v11 (F := Ideal) (m ((c : Thread nD τ).loc main_arg1)) := by
  refine (s1_clamp (W1 m ρ c)).trans ?_
  rw [one1, outdeg1]
  rfl
theorem indeg2 (c : Dev nD) : W2 m ρ c (Proc.devRef .tc main_v10) = val_main_v10 (F := Ideal) (m ((c : Thread nD τ).loc main_arg1)) :=
  (keep1_v10 (W1 m ρ c)).trans (indeg1 m ρ c)

/-- The out-degree factors, as a column. -/
theorem dout3 (c : Dev nD) : W3 m ρ c (Proc.devRef .tc main_v13)
    = shapeCast SC (val_main_v12 (F := Ideal) (m ((c : Thread nD τ).loc main_arg1))) Facts₀.shapeCasts_S50000_S50000x1 := by
  refine (s2_col (W2 m ρ c)).trans ?_
  rw [outclamp2]
  rfl
theorem one3 (c : Dev nD) : W3 m ρ c (Proc.devRef .tc main_cst_3) = (constant S_ .f32 0x3F800000#32 : FVec Ideal S_ .f32) := s2_one (W2 m ρ c)
theorem indeg3 (c : Dev nD) : W3 m ρ c (Proc.devRef .tc main_v10) = val_main_v10 (F := Ideal) (m ((c : Thread nD τ).loc main_arg1)) :=
  (keep2_v10 (W2 m ρ c)).trans (indeg2 m ρ c)

/-- The clamped in-degrees are the reference's. -/
theorem inclamp4 (c : Dev nD) : W4 m ρ c (Proc.devRef .tc main_v14) = val_main_v13 (F := Ideal) (m ((c : Thread nD τ).loc main_arg1)) := by
  refine (s3_clamp (W3 m ρ c)).trans ?_
  rw [one3, indeg3]
  rfl

theorem dout5 (c : Dev nD) : W5 m ρ c (Proc.devRef .tc main_v13)
    = shapeCast SC (val_main_v12 (F := Ideal) (m ((c : Thread nD τ).loc main_arg1))) Facts₀.shapeCasts_S50000_S50000x1 :=
  (keep4_v13 (W4 m ρ c)).trans ((keep3_v13 (W3 m ρ c)).trans (dout3 m ρ c))

/-- The in-degree factors, as a column. -/
theorem din5 (c : Dev nD) : W5 m ρ c (Proc.devRef .tc main_v16)
    = shapeCast SC (val_main_v14 (F := Ideal) (m ((c : Thread nD τ).loc main_arg1))) Facts₀.shapeCasts_S50000_S50000x1 := by
  refine (s4_col (W4 m ρ c)).trans ?_
  rw [inclamp4]
  rfl

/-! ## The first region: the first layer's normalized, scaled features -/

theorem feat6 (c : Dev nD) :
    W6 m ρ c (Proc.devRef .tc main_v17)
      = val_main_v36 (F := Ideal) (m ((c : Thread nD τ).loc main_arg0)) (m ((c : Thread nD τ).loc main_arg1)) := by
  refine (W6_arr m ρ c 2).trans ((final0 (V5 m ρ) c).trans ?_)
  show normScaleCol (W5 m ρ c (Proc.devRef .tc main_arg0)) (W5 m ρ c (Proc.devRef .tc main_v13)) = _
  rw [inp5, dout5, normScaleCol_cast, first_layer]

theorem src6 (c : Dev nD) : W6 m ρ c (Proc.devRef .tc main_v1) = val_main_v1 (F := Ideal) (m ((c : Thread nD τ).loc main_arg1)) :=
  (W6_of_ne m ρ c main_v1 (by decide)).trans (src5 m ρ c)
theorem dst6 (c : Dev nD) : W6 m ρ c (Proc.devRef .tc main_v3) = val_main_v3 (F := Ideal) (m ((c : Thread nD τ).loc main_arg1)) :=
  (W6_of_ne m ρ c main_v3 (by decide)).trans (dst5 m ρ c)
theorem din6 (c : Dev nD) : W6 m ρ c (Proc.devRef .tc main_v16)
    = shapeCast SC (val_main_v14 (F := Ideal) (m ((c : Thread nD τ).loc main_arg1))) Facts₀.shapeCasts_S50000_S50000x1 :=
  (W6_of_ne m ρ c main_v16 (by decide)).trans (din5 m ρ c)
theorem inp6 (c : Dev nD) : W6 m ρ c (Proc.devRef .tc main_arg0) = m ((c : Thread nD τ).loc main_arg0) :=
  ((W6_arr m ρ c 0).trans (((dat0 (V5 m ρ) c).arrAt_in 0 rfl _).trans (A_eq0 (V5 m ρ) c 0))).trans (inp5 m ρ c)
theorem dout6 (c : Dev nD) : W6 m ρ c (Proc.devRef .tc main_v13)
    = shapeCast SC (val_main_v12 (F := Ideal) (m ((c : Thread nD τ).loc main_arg1))) Facts₀.shapeCasts_S50000_S50000x1 :=
  ((W6_arr m ρ c 1).trans (((dat0 (V5 m ρ) c).arrAt_in 1 rfl _).trans (A_eq0 (V5 m ρ) c 1))).trans (dout5 m ρ c)

/-! ## The first aggregation: gather the features along the edges, add them into the target nodes -/

theorem agg7 (c : Dev nD) :
    W7 m ρ c (Proc.devRef .tc main_v27)
      = val_main_v46 (F := Ideal) (m ((c : Thread nD τ).loc main_arg0)) (m ((c : Thread nD τ).loc main_arg1)) := by
  dsimp only [W7, hostOps1]
  after_results_simp
  rw [feat6, src6, dst6]
  unfold Cert.ReferenceIdeal.Read.val_main_v46 Cert.ReferenceIdeal.Read.val_main_v43 Cert.ReferenceIdeal.Read.val_main_v42 Cert.ReferenceIdeal.Read.val_main_v41 Cert.ReferenceIdeal.Read.val_main_v40 Cert.ReferenceIdeal.Read.val_main_v39 Cert.ReferenceIdeal.Read.val_main_c_9 Cert.ReferenceIdeal.Read.val_main_v38 Cert.ReferenceIdeal.Read.val_main_v37 Cert.ReferenceIdeal.Read.val_main_c Cert.ReferenceIdeal.Read.val_main_v45 Cert.ReferenceIdeal.Read.val_main_v44 Cert.ReferenceIdeal.Read.val_main_cst_10
  rfl

theorem src7 (c : Dev nD) : W7 m ρ c (Proc.devRef .tc main_v1) = val_main_v1 (F := Ideal) (m ((c : Thread nD τ).loc main_arg1)) := by
  refine Eq.trans ?_ (src6 m ρ c)
  dsimp only [W7, hostOps1]
  after_results_simp
theorem dst7 (c : Dev nD) : W7 m ρ c (Proc.devRef .tc main_v3) = val_main_v3 (F := Ideal) (m ((c : Thread nD τ).loc main_arg1)) := by
  refine Eq.trans ?_ (dst6 m ρ c)
  dsimp only [W7, hostOps1]
  after_results_simp
theorem din7 (c : Dev nD) : W7 m ρ c (Proc.devRef .tc main_v16)
    = shapeCast SC (val_main_v14 (F := Ideal) (m ((c : Thread nD τ).loc main_arg1))) Facts₀.shapeCasts_S50000_S50000x1 := by
  refine Eq.trans ?_ (din6 m ρ c)
  dsimp only [W7, hostOps1]
  after_results_simp
theorem inp7 (c : Dev nD) : W7 m ρ c (Proc.devRef .tc main_arg0) = m ((c : Thread nD τ).loc main_arg0) := by
  refine Eq.trans ?_ (inp6 m ρ c)
  dsimp only [W7, hostOps1]
  after_results_simp
theorem dout7 (c : Dev nD) : W7 m ρ c (Proc.devRef .tc main_v13)
    = shapeCast SC (val_main_v12 (F := Ideal) (m ((c : Thread nD τ).loc main_arg1))) Facts₀.shapeCasts_S50000_S50000x1 := by
  refine Eq.trans ?_ (dout6 m ρ c)
  dsimp only [W7, hostOps1]
  after_results_simp

/-! ## The second region: the residual, normalized and scaled -/

theorem feat8 (c : Dev nD) :
    W8 m ρ c (Proc.devRef .tc main_v28)
      = val_main_v72 (F := Ideal) (m ((c : Thread nD τ).loc main_arg0)) (m ((c : Thread nD τ).loc main_arg1)) := by
  refine (W8_arr m ρ c 4).trans ((final1 (V7 m ρ) c).trans ?_)
  show normScaleCol (residualCol (W7 m ρ c (Proc.devRef .tc main_v27)) (W7 m ρ c (Proc.devRef .tc main_v16))
      (W7 m ρ c (Proc.devRef .tc main_arg0))) (W7 m ρ c (Proc.devRef .tc main_v13)) = _
  rw [agg7, din7, inp7, dout7, residualCol_cast, normScaleCol_cast, second_layer, residual_eq]

theorem src8 (c : Dev nD) : W8 m ρ c (Proc.devRef .tc main_v1) = val_main_v1 (F := Ideal) (m ((c : Thread nD τ).loc main_arg1)) :=
  (W8_of_ne m ρ c main_v1 (by decide)).trans (src7 m ρ c)
theorem dst8 (c : Dev nD) : W8 m ρ c (Proc.devRef .tc main_v3) = val_main_v3 (F := Ideal) (m ((c : Thread nD τ).loc main_arg1)) :=
  (W8_of_ne m ρ c main_v3 (by decide)).trans (dst7 m ρ c)
theorem din8 (c : Dev nD) : W8 m ρ c (Proc.devRef .tc main_v16)
    = shapeCast SC (val_main_v14 (F := Ideal) (m ((c : Thread nD τ).loc main_arg1))) Facts₀.shapeCasts_S50000_S50000x1 :=
  ((W8_arr m ρ c 1).trans (((dat1 (V7 m ρ) c).arrAt_in 1 rfl _).trans (A_eq1 (V7 m ρ) c 1))).trans (din7 m ρ c)

/-! ## The second aggregation -/

theorem agg9 (c : Dev nD) :
    W9 m ρ c (Proc.devRef .tc main_v38)
      = val_main_v82 (F := Ideal) (m ((c : Thread nD τ).loc main_arg0)) (m ((c : Thread nD τ).loc main_arg1)) := by
  dsimp only [W9, hostOps2]
  after_results_simp
  rw [feat8, src8, dst8]
  unfold Cert.ReferenceIdeal.Read.val_main_v82 Cert.ReferenceIdeal.Read.val_main_v79 Cert.ReferenceIdeal.Read.val_main_v78 Cert.ReferenceIdeal.Read.val_main_v77 Cert.ReferenceIdeal.Read.val_main_v76 Cert.ReferenceIdeal.Read.val_main_v75 Cert.ReferenceIdeal.Read.val_main_c_17 Cert.ReferenceIdeal.Read.val_main_v74 Cert.ReferenceIdeal.Read.val_main_v73 Cert.ReferenceIdeal.Read.val_main_c_16 Cert.ReferenceIdeal.Read.val_main_v81 Cert.ReferenceIdeal.Read.val_main_v80 Cert.ReferenceIdeal.Read.val_main_cst_18
  rfl

theorem din9 (c : Dev nD) : W9 m ρ c (Proc.devRef .tc main_v16)
    = shapeCast SC (val_main_v14 (F := Ideal) (m ((c : Thread nD τ).loc main_arg1))) Facts₀.shapeCasts_S50000_S50000x1 := by
  refine Eq.trans ?_ (din8 m ρ c)
  dsimp only [W9, hostOps2]
  after_results_simp

/-! ## The third region: the result -/

theorem result10 (c : Dev nD) :
    W10 m ρ c (Proc.devRef .tc main_v39)
      = val_main_v85 (F := Ideal) (m ((c : Thread nD τ).loc main_arg0)) (m ((c : Thread nD τ).loc main_arg1)) := by
  refine (W10_arr m ρ c 2).trans ((final2 (V9 m ρ) c).trans ?_)
  show scaleRowsCol (W9 m ρ c (Proc.devRef .tc main_v38)) (W9 m ρ c (Proc.devRef .tc main_v16)) = _
  rw [agg9, din9, scaleRowsCol_cast, result_eq]

/-! ## The kernel program's run, its result at the reference's term -/

theorem run : θ_run defs (onTc (τ := τ) (main (F := Ideal))) ⟨m, fun _ => 0, ρ⟩ (fun r => ∀ c : Dev nD,
      r.2.mem ((c.tc : Thread nD τ).loc main_v39)
        = val_main_v85 (F := Ideal) (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result10 m ρ c), (h c).2⟩) (Cert.KernelIdeal.Named.run_named m ρ)

end Cert.KernelIdeal.Walk

end
-- ==== Proof.lean ====
/-
  A two-layer graph network without parameters on 50000 nodes with 128 features and 800000 edges:
  each layer normalizes every node's feature row (zero mean, unit variance up to a small offset),
  clips it below at zero, scales it by the node's out-degree factor, sums the rows along the edges
  into the target nodes and scales by the in-degree factor; the second layer first adds the input
  back. The kernel program computes the row-wise parts in three grid regions of 25 blocks of 2000
  rows and leaves the edge sums to host operations; the reference computes everything with
  whole-matrix host operations.

  Over the extended reals the two agree for every input, without any use of finiteness: both sides
  apply the same operations in the same order to the same numbers. Every row-wise stage of the
  reference, read at (r, c), depends on row r alone and is the row map of RowNorm (RefRead); a block
  of rows run through the kernel's block program is the same row map on those rows (BlockNorm), the
  25 blocks tile the rows (KernelBlocks); the per-row degree factors reach the kernel as a one-column
  matrix and the reference as a vector repeated across columns, the same number in either layout; and
  the edge gather and scatter-add are the same whole-array operations on both sides, applied to equal
  arrays (KernelWalk). No rewrite was applied when the kernel was idealized, so nothing is owed for it.
-/
import proofs.«119341_j34720515620918_1_alg».proof.Defs
import proofs.«119341_j34720515620918_1_alg».proof.Proof.Gen.Kernel
import proofs.«119341_j34720515620918_1_alg».proof.Proof.Gen.Kernel.Frame
import proofs.«119341_j34720515620918_1_alg».proof.Proof.Gen.KernelIdeal
import proofs.«119341_j34720515620918_1_alg».proof.Proof.Gen.KernelIdeal.Frame
import proofs.«119341_j34720515620918_1_alg».proof.Proof.Gen.ReferenceIdeal
import proofs.«119341_j34720515620918_1_alg».proof.Proof.Gen.Pre_finite_inputs
import proofs.«119341_j34720515620918_1_alg».proof.Proof.Gen.ReferenceIdeal.Run
import proofs.«119341_j34720515620918_1_alg».proof.Proof.Gen.ReferenceIdeal.Read
import proofs.«119341_j34720515620918_1_alg».proof.Proof.KernelWalk
import Idealize.ShloMosaic.Adequacy
import Idealize.ShloMosaic.Init

noncomputable section

namespace Cert.Proof

open Idealize.ShloMosaic Idealize.SL.Sem

/-- The word-level kernel program runs to the end without a fault and leaves its arguments alone. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- So does the reference: its run, with the statement about the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Idealizing the kernel rewrote no operation. -/
theorem preserves : Cert.preserves_Kernel_KernelIdeal := trivial

/-- From memories that agree on the two arguments both programs run to the end, and both result
    matrices are the reference's result term of the arguments. -/
theorem algebraic : Cert.algebraic_KernelIdeal_ReferenceIdeal := by
  intro m ρ m' ρ' _ hagree
  refine ⟨_, Cert.KernelIdeal.Walk.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v85_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
